-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S2x800000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 46
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S1x800000, .i32⟩
  | .hbm, ⟨25, _⟩ => ⟨S800000, .i32⟩
  | .hbm, ⟨26, _⟩ => ⟨S1x800000, .i32⟩
  | .hbm, ⟨27, _⟩ => ⟨S800000, .i32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S1x128, .f32⟩
  | .hbm, ⟨45, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S50000x128, .f32⟩
  | .hbm, ⟨25, _⟩ => ⟨S128x128, .f32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S128x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S1x800000, .i32⟩
  | .hbm, ⟨39, _⟩ => ⟨S800000, .i32⟩
  | .hbm, ⟨40, _⟩ => ⟨S1x800000, .i32⟩
  | .hbm, ⟨41, _⟩ => ⟨S800000, .i32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S128x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S128x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_1 : Ref sig .tc := ⟨.hbm, 42, rfl⟩
abbrev main_v30 : Ref sig .tc := ⟨.hbm, 43, rfl⟩
abbrev main_v31 : Ref sig .tc := ⟨.hbm, 44, rfl⟩
abbrev main_c_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call1_cst : Ref sig .tc := ⟨.hbm, 61, rfl⟩
abbrev main_call1_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_4 : Ref sig .tc := ⟨.hbm, 70, rfl⟩
abbrev main_v53 : Ref sig .tc := ⟨.hbm, 71, rfl⟩
abbrev main_v54 : Ref sig .tc := ⟨.hbm, 72, rfl⟩
abbrev main_call2_cst : Ref sig .tc := ⟨.hbm, 73, rfl⟩
abbrev main_call2_v0 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The function both programs compute, stated once over literal shapes.

  A node's feature row `h` (128 numbers) goes through a two-layer perceptron: the hidden unit `k` is
  `max (∑ l, h l · W₁ᵀ(l, k) + b₁ k) 0` and the output unit `j` is the sum over `k` of that hidden unit times `W₂ᵀ(k, j)`, plus `b₂ j`.
  The layer is applied to two rows per node, `x + a₁` and `x + a₂` (the node's own features plus the sum of
  its neighbours' features along the edges, resp. the reversed edges); the node's result is
  `max ((out₁ + out₂) · ½) 0`.  Everything is an extended real; the sums run over `Fin 128`, so the
  definitions do not mention how many rows an array has: a block of 2000 rows and the whole array of 50000
  rows are read by the same `perceptron`.
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx

/-- The f32 words of `0.0` and `0.5`, read as extended reals; never evaluated, both programs carry the same words. -/
abbrev zeroF : EReal := Ideal.ofBits .f32 0x00000000#32
abbrev halfF : EReal := Ideal.ofBits .f32 0x3F000000#32

/-- Hidden unit `k` of the perceptron on the feature row `h`. -/
def hiddenUnit (h : Fin 128 → EReal) (w1t : (⟨2, ![128, 128]⟩ : Shape).Idx → EReal) (b1 : Fin 128 → EReal) (k : Fin 128) : EReal :=
  max ((∑ l : Fin 128, h l * w1t (ix2 l k)) + b1 k) zeroF

/-- Output unit `j` of the perceptron on the feature row `h`. -/
def perceptron (h : Fin 128 → EReal) (w1t : (⟨2, ![128, 128]⟩ : Shape).Idx → EReal) (b1 : Fin 128 → EReal)
    (w2t : (⟨2, ![128, 128]⟩ : Shape).Idx → EReal) (b2 : Fin 128 → EReal) (j : Fin 128) : EReal :=
  (∑ k : Fin 128, hiddenUnit h w1t b1 k * w2t (ix2 k j)) + b2 j

/-- The two branches of one node joined: the mean of the two perceptron outputs, clipped below at zero. -/
def joined (h₁ h₂ : Fin 128 → EReal) (w1t : (⟨2, ![128, 128]⟩ : Shape).Idx → EReal) (b1 : Fin 128 → EReal)
    (w2t : (⟨2, ![128, 128]⟩ : Shape).Idx → EReal) (b2 : Fin 128 → EReal) (j : Fin 128) : EReal :=
  max ((perceptron h₁ w1t b1 w2t b2 j + perceptron h₂ w1t b1 w2t b2 j) * halfF) zeroF

/-- The whole result array: entry `(r, j)` is `joined` of the rows `x r + a₁ r` and `x r + a₂ r`. -/
def result (x a₁ a₂ : (⟨2, ![50000, 128]⟩ : Shape).Idx → EReal) (w1t : (⟨2, ![128, 128]⟩ : Shape).Idx → EReal) (b1 : Fin 128 → EReal)
    (w2t : (⟨2, ![128, 128]⟩ : Shape).Idx → EReal) (b2 : Fin 128 → EReal) : (⟨2, ![50000, 128]⟩ : Shape).Idx → EReal :=
  fun i => joined (fun l => x (ix2 (i 0) l) + a₁ (ix2 (i 0) l)) (fun l => x (ix2 (i 0) l) + a₂ (ix2 (i 0) l)) w1t b1 w2t b2 (i 1)

/-- The same on one block of 2000 rows, with the biases given as `[1, 128]` rows as the kernel holds them. -/
def blockResult (x a₁ a₂ : (⟨2, ![2000, 128]⟩ : Shape).Idx → EReal) (w1t : (⟨2, ![128, 128]⟩ : Shape).Idx → EReal)
    (b1 : (⟨2, ![1, 128]⟩ : Shape).Idx → EReal) (w2t : (⟨2, ![128, 128]⟩ : Shape).Idx → EReal)
    (b2 : (⟨2, ![1, 128]⟩ : Shape).Idx → EReal) (p : Fin 2000) (q : Fin 128) : EReal :=
  joined (fun l => x (ix2 p l) + a₁ (ix2 p l)) (fun l => x (ix2 p l) + a₂ (ix2 p l)) w1t (fun k => b1 (ix2 (0 : Fin 1) k))
    w2t (fun k => b2 (ix2 (0 : Fin 1) k)) q

end Cert.Gin

end
-- ==== Proof.Payload.lean ====
/-
  The kernel body's stored value, read at one entry of the block.

  The body loads three 2000×128 blocks (the node features and the two neighbour sums), the two 128×128
  weight matrices and the two 1×128 bias rows, and stores one 2000×128 block.  Reading the stored block at
  row `p`, column `q`: each matrix product into a zero accumulator is the plain sum over the 128 contracted
  coordinates, the changes of float format are the identity on extended reals, the bias row is broadcast
  down the rows, and what is left is `Cert.Gin.blockResult` of the seven loaded blocks at `(p, q)`.
-/
import proofs.«171090_j19610820673951_1_alg».proof.Proof.Gen.KernelIdeal.Skeleton
import proofs.«171090_j19610820673951_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Gin

/-- The operand indices of the block product at an output index `i` and a contraction index `c`, coordinate by
    coordinate: the left one is (row of `i`, `c`), the right one (`c`, column of `i`). -/
theorem lhs_row (i : S2000x128.Idx) (c : dot_S2000x128_S128x128_S2000x128_1_0_0_1_n_n.contr.Idx) : (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (c : dot_S2000x128_S128x128_S2000x128_1_0_0_1_n_n.contr.Idx) : (dot_S2000x128_S128x128_S2000x128_1_0_0_1_n_n.lhsIdx i c 1).val = (c ⟨0, by decide⟩).val :=
  dot_S2000x128_S128x128_S2000x128_1_0_0_1_n_n.lhsIdx_val_of_single rfl i c
theorem rhs_row (i : S2000x128.Idx) (c : dot_S2000x128_S128x128_S2000x128_1_0_0_1_n_n.contr.Idx) : (dot_S2000x128_S128x128_S2000x128_1_0_0_1_n_n.rhsIdx i c 0).val = (c ⟨0, by decide⟩).val :=
  dot_S2000x128_S128x128_S2000x128_1_0_0_1_n_n.rhsIdx_val_of_single rfl i c
theorem rhs_col (i : S2000x128.Idx) (c : dot_S2000x128_S128x128_S2000x128_1_0_0_1_n_n.contr.Idx) : (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- At output `(p, q)` and contracted coordinate `k` the left operand is read at `(p, k)`. -/
theorem lhs_at (p : Fin 2000) (q k : Fin 128) :
    dot_S2000x128_S128x128_S2000x128_1_0_0_1_n_n.lhsIdx (ix2 p q) ((contrEquiv1 dot_S2000x128_S128x128_S2000x128_1_0_0_1_n_n 128 rfl rfl).symm k) = ix2 p k := by
  have hk := contrEquiv1_symm_val dot_S2000x128_S128x128_S2000x128_1_0_0_1_n_n 128 rfl rfl k
  exact funext fun a => Fin.ext (by
    match a with
    | ⟨0, _⟩ => exact lhs_row _ _
    | ⟨1, _⟩ => exact (lhs_col _ _).trans hk)

/-- … and the right operand at `(k, q)`. -/
theorem rhs_at (p : Fin 2000) (q k : Fin 128) :
    dot_S2000x128_S128x128_S2000x128_1_0_0_1_n_n.rhsIdx (ix2 p q) ((contrEquiv1 dot_S2000x128_S128x128_S2000x128_1_0_0_1_n_n 128 rfl rfl).symm k) = ix2 k q := by
  have hk := contrEquiv1_symm_val dot_S2000x128_S128x128_S2000x128_1_0_0_1_n_n 128 rfl rfl k
  exact funext fun a => Fin.ext (by
    match a with
    | ⟨0, _⟩ => exact (rhs_row _ _).trans hk
    | ⟨1, _⟩ => exact rhs_col _ _)

/-- A 2000×128 block times a 128×128 matrix, accumulated into zero, at `(p, q)`: the sum over `k` of
    `l (p, k) · r (k, q)`. -/
theorem product_at (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  rw [lhs_at, rhs_at]

/-- The stored block at `(p, q)` is `blockResult` of the loaded blocks. -/
theorem stored_at (x0 x1 x2 : Vec Ideal S2000x128 .f32) (x3 : Vec Ideal S128x128 .f32) (x4 : Vec Ideal S1x128 .f32)
    (x5 : Vec Ideal S128x128 .f32) (x6 : Vec Ideal S1x128 .f32) (p : Fin 2000) (q : Fin 128) :
    k0_pay1 (F := Ideal) (k0_pay2 x0 x1 x2 x3 x5 x4 x6) (Scalar.ofBits .f32 0x3F000000#32) (ix2 p q)
      = blockResult x0 x1 x2 x3 x4 x5 x6 p q := by
  unfold k0_pay1 k0_pay2 blockResult joined perceptron hiddenUnit
  simp only [shapeCast_self, maximumf_apply, mulf_apply, addf_apply, broadcast_apply, product_at, truncf_apply,
    broadcastTo_1b_ab_apply]
  rfl

end Cert.KernelIdeal.Body

end
-- ==== Proof.BlockReads.lean ====
/-
  The blocks the grid points read, as reads of the arrays the region finds.

  The grid has 25 points.  At point `t` the three row windows (node features, the two neighbour sums) and the
  output window sit at block `(t, 0)` — rows `2000·t … 2000·t + 1999`, all 128 columns — and the four small windows
  (two weight matrices, two bias rows) at block `(0, 0)`, which is their whole array.  An entry of a block is the
  array's entry at block index × block size + the coordinate inside the block, axis by axis.
-/
import proofs.«171090_j19610820673951_1_alg».proof.Proof.Gen.KernelIdeal.Value
import Idealize.ShloMosaic.Lib.Pipeline.Value
import Idealize.ShloMosaic.Lib.ValueIdx
import Idealize.ShloMosaic.PureOps.Ideal

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The block index of every window at every grid point: the three row windows and the output move down the rows
    with the point, staying at column block 0; the weights and biases stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The input blocks, as reads of the arrays the region finds -/

/-- Entry `y` of a row block of the node features at point `t` is the array's entry in row `2000·t + y₀`, column `y₁`, whatever the array holds; below, the same at the array the region finds. -/
theorem features_read_of (t : Fin cfg0.N) (f : S50000x128.Idx → EReal) (y : S2000x128.Idx) (i : S50000x128.Idx)
    (h0 : (i 0).val = t.val * 2000 + (y 0).val) (h1 : (i 1).val = (y 1).val) :
    ((cfg0.win 0).blk t).view.read (Elt Ideal) f y = f i := by
  obtain ⟨e00, e01, e10, e11, e20, e21, -, -, -, -, -, -, -, -, -, -⟩ := index_facts t
  show f (((cfg0.win 0).blk t).view.emb y) = f i
  refine congrArg f (funext fun a => Fin.ext ?_)
  match a with
  | ⟨0, _⟩ => show win0_0.index t (0 : Fin 2) * 2000 + 1 * (y 0).val = (i 0).val; omega
  | ⟨1, _⟩ => show win0_0.index t (1 : Fin 2) * 128 + 1 * (y 1).val = (i 1).val; omega

theorem features_read (c : Dev nD) (t : Fin cfg0.N) (y : S2000x128.Idx) (i : S50000x128.Idx)
    (h0 : (i 0).val = t.val * 2000 + (y 0).val) (h1 : (i 1).val = (y 1).val) :
    (iblk m c 0 t : Vec Ideal S2000x128 .f32) y = (V m c main_arg0 : S50000x128.Idx → EReal) i :=
  features_read_of t (V m c (Pipeline.arrRef spec0 0)) y i h0 h1

/-- The same for the first neighbour sum. -/
theorem sum1_read_of (t : Fin cfg0.N) (f : S50000x128.Idx → EReal) (y : S2000x128.Idx) (i : S50000x128.Idx)
    (h0 : (i 0).val = t.val * 2000 + (y 0).val) (h1 : (i 1).val = (y 1).val) :
    ((cfg0.win 1).blk t).view.read (Elt Ideal) f y = f i := by
  obtain ⟨e00, e01, e10, e11, e20, e21, -, -, -, -, -, -, -, -, -, -⟩ := index_facts t
  show f (((cfg0.win 1).blk t).view.emb y) = f i
  refine congrArg f (funext fun a => Fin.ext ?_)
  match a with
  | ⟨0, _⟩ => show win0_1.index t (0 : Fin 2) * 2000 + 1 * (y 0).val = (i 0).val; omega
  | ⟨1, _⟩ => show win0_1.index t (1 : Fin 2) * 128 + 1 * (y 1).val = (i 1).val; omega

theorem sum1_read (c : Dev nD) (t : Fin cfg0.N) (y : S2000x128.Idx) (i : S50000x128.Idx)
    (h0 : (i 0).val = t.val * 2000 + (y 0).val) (h1 : (i 1).val = (y 1).val) :
    (iblk m c 1 t : Vec Ideal S2000x128 .f32) y = (V m c main_v13 : S50000x128.Idx → EReal) i :=
  sum1_read_of t (V m c (Pipeline.arrRef spec0 1)) y i h0 h1

/-- The same for the second neighbour sum. -/
theorem sum2_read_of (t : Fin cfg0.N) (f : S50000x128.Idx → EReal) (y : S2000x128.Idx) (i : S50000x128.Idx)
    (h0 : (i 0).val = t.val * 2000 + (y 0).val) (h1 : (i 1).val = (y 1).val) :
    ((cfg0.win 2).blk t).view.read (Elt Ideal) f y = f i := by
  obtain ⟨e00, e01, e10, e11, e20, e21, -, -, -, -, -, -, -, -, -, -⟩ := index_facts t
  show f (((cfg0.win 2).blk t).view.emb y) = f i
  refine congrArg f (funext fun a => Fin.ext ?_)
  match a with
  | ⟨0, _⟩ => show win0_2.index t (0 : Fin 2) * 2000 + 1 * (y 0).val = (i 0).val; omega
  | ⟨1, _⟩ => show win0_2.index t (1 : Fin 2) * 128 + 1 * (y 1).val = (i 1).val; omega

theorem sum2_read (c : Dev nD) (t : Fin cfg0.N) (y : S2000x128.Idx) (i : S50000x128.Idx)
    (h0 : (i 0).val = t.val * 2000 + (y 0).val) (h1 : (i 1).val = (y 1).val) :
    (iblk m c 2 t : Vec Ideal S2000x128 .f32) y = (V m c main_v27 : S50000x128.Idx → EReal) i :=
  sum2_read_of t (V m c (Pipeline.arrRef spec0 2)) y i h0 h1

/-- The first weight window's block is the whole transposed matrix, at every point. -/
theorem weights1_read (c : Dev nD) (t : Fin cfg0.N) :
    (iblk m c 3 t : Vec Ideal S128x128 .f32) = (V m c main_v28 : S128x128.Idx → EReal) := by
  obtain ⟨-, -, -, -, -, -, e30, e31, e40, e41, e50, e51, e60, e61, -, -⟩ := index_facts t
  funext y
  show (V m c main_v28 : S128x128.Idx → EReal) (((cfg0.win 3).blk t).view.emb y) = _
  refine congrArg (V m c main_v28 : S128x128.Idx → EReal) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The first bias window's block is the whole bias row. -/
theorem bias1_read (c : Dev nD) (t : Fin cfg0.N) :
    (iblk m c 4 t : Vec Ideal S1x128 .f32) = (V m c main_v30 : S1x128.Idx → EReal) := by
  obtain ⟨-, -, -, -, -, -, e30, e31, e40, e41, e50, e51, e60, e61, -, -⟩ := index_facts t
  funext y
  show (V m c main_v30 : S1x128.Idx → EReal) (((cfg0.win 4).blk t).view.emb y) = _
  refine congrArg (V m c main_v30 : S1x128.Idx → EReal) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The second weight window's block is the whole transposed matrix. -/
theorem weights2_read (c : Dev nD) (t : Fin cfg0.N) :
    (iblk m c 5 t : Vec Ideal S128x128 .f32) = (V m c main_v29 : S128x128.Idx → EReal) := by
  obtain ⟨-, -, -, -, -, -, e30, e31, e40, e41, e50, e51, e60, e61, -, -⟩ := index_facts t
  funext y
  show (V m c main_v29 : S128x128.Idx → EReal) (((cfg0.win 5).blk t).view.emb y) = _
  refine congrArg (V m c main_v29 : S128x128.Idx → EReal) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The second bias window's block is the whole bias row. -/
theorem bias2_read (c : Dev nD) (t : Fin cfg0.N) :
    (iblk m c 6 t : Vec Ideal S1x128 .f32) = (V m c main_v31 : S1x128.Idx → EReal) := by
  obtain ⟨-, -, -, -, -, -, e30, e31, e40, e41, e50, e51, e60, e61, -, -⟩ := index_facts t
  funext y
  show (V m c main_v31 : S1x128.Idx → EReal) (((cfg0.win 6).blk t).view.emb y) = _
  refine congrArg (V m c main_v31 : S1x128.Idx → EReal) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

end Cert.KernelIdeal.Blocks

end
-- ==== Proof.KernelValue.lean ====
/-
  From the blocks the grid points write to the whole result array.

  The grid has 25 points; point `t` reads rows `2000·t … 2000·t + 1999` of the node features and of the two
  neighbour sums, the whole of each weight matrix and bias row, and writes back rows `2000·t … 2000·t + 1999`
  of the result.  Entry `(p, q)` of the block written at point `t` depends only on row `p` of the three row
  blocks, so it is entry `(2000·t + p, q)` of `Cert.Gin.result` of the whole arrays: what point `t` writes
  back is `result` read through the point's block.  The 25 blocks cover the 50000 rows (row `r` is in the block
  of point `r / 2000`), hence the array ends holding `result`.
-/
import proofs.«171090_j19610820673951_1_alg».proof.Proof.Gen.KernelIdeal.Value
import proofs.«171090_j19610820673951_1_alg».proof.Proof.Payload
import proofs.«171090_j19610820673951_1_alg».proof.Proof.BlockReads
import proofs.«171090_j19610820673951_1_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Gin
open Idealize.ShloMosaic.Pipeline (Dat)

variable (m : (ℓ : Loc nD τ sig) → Buf (Elt Ideal) ℓ) (ρ : Dev nD → PrngReg)

/-! ## What a point writes back -/

/-- The result array as a function of the arrays the region finds. -/
abbrev found (c : Dev nD) : S50000x128.Idx → EReal :=
  result (V m c main_arg0 : S50000x128.Idx → EReal) (V m c main_v13 : S50000x128.Idx → EReal) (V m c main_v27 : S50000x128.Idx → EReal)
    (V m c main_v28 : S128x128.Idx → EReal) (fun k => (V m c main_v30 : S1x128.Idx → EReal) (ix2 (0 : Fin 1) k))
    (V m c main_v29 : S128x128.Idx → EReal) (fun k => (V m c main_v31 : S1x128.Idx → EReal) (ix2 (0 : Fin 1) k))

/-- The stored block at any entry of the block (`Body.stored_at` with the entry's two coordinates named). -/
theorem stored_apply (x0 x1 x2 : Vec Ideal S2000x128 .f32) (x3 : Vec Ideal S128x128 .f32) (x4 : Vec Ideal S1x128 .f32)
    (x5 : Vec Ideal S128x128 .f32) (x6 : Vec Ideal S1x128 .f32) (j : S2000x128.Idx) :
    k0_pay1 (F := Ideal) (k0_pay2 x0 x1 x2 x3 x5 x4 x6) (Scalar.ofBits .f32 0x3F000000#32) j
      = blockResult x0 x1 x2 x3 x4 x5 x6 (j 0) (j 1) := by
  obtain ⟨p, q, rfl⟩ : ∃ (p : Fin 2000) (q : Fin 128), j = ix2 p q := ⟨j 0, j 1, eq_ix2 j⟩
  exact Body.stored_at x0 x1 x2 x3 x4 x5 x6 p q

/-- A block's entry `(p, q)` is the whole result's entry `i` when row `p` of each row block is row `i₀` of its
    array and `q` is `i₁`: the perceptron reads nothing else. -/
theorem block_entry (x a₁ a₂ : (⟨2, ![50000, 128]⟩ : Shape).Idx → EReal) (bx ba₁ ba₂ : (⟨2, ![2000, 128]⟩ : Shape).Idx → EReal)
    (w1t : (⟨2, ![128, 128]⟩ : Shape).Idx → EReal) (b1 : (⟨2, ![1, 128]⟩ : Shape).Idx → EReal)
    (w2t : (⟨2, ![128, 128]⟩ : Shape).Idx → EReal) (b2 : (⟨2, ![1, 128]⟩ : Shape).Idx → EReal)
    (i : (⟨2, ![50000, 128]⟩ : Shape).Idx) (p : Fin 2000) (q : Fin 128)
    (hx : ∀ l : Fin 128, bx (ix2 p l) = x (ix2 (i 0) l)) (h₁ : ∀ l : Fin 128, ba₁ (ix2 p l) = a₁ (ix2 (i 0) l))
    (h₂ : ∀ l : Fin 128, ba₂ (ix2 p l) = a₂ (ix2 (i 0) l)) (hq : q = i 1) :
    blockResult bx ba₁ ba₂ w1t b1 w2t b2 p q
      = result x a₁ a₂ w1t (fun k => b1 (ix2 (0 : Fin 1) k)) w2t (fun k => b2 (ix2 (0 : Fin 1) k)) i := by
  subst hq
  unfold blockResult result
  simp only [hx, h₁, h₂]

-- Below, `result` and `blockResult` enter only through `block_entry`: a block's entry is the whole result's entry.
attribute [local irreducible] Cert.Gin.result Cert.Gin.blockResult

/-- WHAT POINT `t` WRITES BACK is `found` read through the point's block. -/
theorem flushed_eq (c : Dev nD) (t : Fin cfg0.N) :
    (dats m 0 c).flushed 7 t = ((cfg0.win 7).blk t).view.read (Elt Ideal) (found m c) := by
  rw [Value.flushed7]
  unfold out0_7
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, -, -, -, -, -, -, -, -, e70, e71⟩ := index_facts t
  funext j
  have hr : ((((cfg0.win 7).blk t).view.emb j) 0).val = t.val * 2000 + (j 0).val := by
    show win0_7.index t (0 : Fin 2) * 2000 + 1 * (j 0).val = _; omega
  have hc : ((((cfg0.win 7).blk t).view.emb j) 1).val = (j 1).val := by
    show win0_7.index t (1 : Fin 2) * 128 + 1 * (j 1).val = _; omega
  rw [View.read_apply, cast_eq]
  show k0_pay1 (F := Ideal) (k0_pay2 (iblk m c 0 t) (iblk m c 1 t) (iblk m c 2 t) (iblk m c 3 t) (iblk m c 5 t) (iblk m c 4 t) (iblk m c 6 t))
      (Scalar.ofBits .f32 0x3F000000#32) ((cfg0.win 7).xinj (grid0.coords t) j) = _
  refine (stored_apply (iblk m c 0 t) (iblk m c 1 t) (iblk m c 2 t) (iblk m c 3 t) (iblk m c 4 t) (iblk m c 5 t) (iblk m c 6 t) ((cfg0.win 7).xinj (grid0.coords t) j)).trans ?_
  rw [weights1_read m c t, bias1_read m c t, weights2_read m c t, bias2_read m c t]
  exact block_entry (V m c main_arg0 : S50000x128.Idx → EReal) (V m c main_v13 : S50000x128.Idx → EReal) (V m c main_v27 : S50000x128.Idx → EReal)
    (iblk m c 0 t) (iblk m c 1 t) (iblk m c 2 t) (V m c main_v28 : S128x128.Idx → EReal) (V m c main_v30 : S1x128.Idx → EReal)
    (V m c main_v29 : S128x128.Idx → EReal) (V m c main_v31 : S1x128.Idx → EReal) (((cfg0.win 7).blk t).view.emb j)
    ((cfg0.win 7).xinj (grid0.coords t) j 0) ((cfg0.win 7).xinj (grid0.coords t) j 1)
    (fun l => features_read m c t (ix2 ((cfg0.win 7).xinj (grid0.coords t) j 0) l) (ix2 ((((cfg0.win 7).blk t).view.emb j) 0) l) hr rfl)
    (fun l => sum1_read m c t (ix2 ((cfg0.win 7).xinj (grid0.coords t) j 0) l) (ix2 ((((cfg0.win 7).blk t).view.emb j) 0) l) hr rfl)
    (fun l => sum2_read m c t (ix2 ((cfg0.win 7).xinj (grid0.coords t) j 0) l) (ix2 ((((cfg0.win 7).blk t).view.emb j) 0) l) hr rfl)
    (Fin.ext hc.symm)

/-! ## The cover, and the array after the run -/

/-- An index of the result array is in point `t`'s block iff each coordinate is in the block's range on its axis. -/
theorem mem_block (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v32).slice (win0_7.rect t)).set ↔ _
  rw [View.set_slice_whole, Rect.mem_set_unit]
  exact Iff.rfl

/-- Every row is in the block of the point `row / 2000`. -/
theorem covered (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have ht : t.val = (i 0).val / 2000 := rfl
  obtain ⟨-, -, -, -, -, -, -, -, -, -, -, -, -, -, e70, e71⟩ := index_facts t
  refine ⟨t, flush0_7 t, ?_⟩
  rw [mem_block]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- THE RESULT ARRAY after the run is `found`. -/
theorem final (c : Dev nD) : (dats m 0 c).arrAt 7 cfg0.N = found m c :=
  (dats m 0 c).arrAt_eq_of_cover 7 (found m c) (fun t _ => flushed_eq m c t) (covered)

/-- The run, read: the result array at `found`, the arguments unchanged. -/
theorem run : θ_run defs (onTc (τ := τ) (main (F := Ideal))) ⟨m, fun _ => 0, ρ⟩ fun r => ∀ c : Dev nD,
      r.2.mem ((c : Thread nD τ).loc main_v32) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Blocks

end
-- ==== Proof.HostArrays.lean ====
/-
  What the kernel's region finds in the arrays its windows read.

  Before the region the host computes, from the launch contents, the two neighbour sums (for each edge list:
  gather the source nodes' feature rows, scatter-add them at the destination nodes), the two transposed weight
  matrices, and the two biases reshaped to one row.  The neighbour sums and the transposes are the very terms
  the reference forms, so they are stated as the reference's own stages of the launch contents and never
  opened; a reshaped bias `[128] → [1, 128]` reads, at `(0, k)`, the bias at `k`.
-/
import proofs.«171090_j19610820673951_1_alg».proof.Proof.Gen.KernelIdeal.Frame
import proofs.«171090_j19610820673951_1_alg».proof.Proof.Gen.ReferenceIdeal.Read
import Idealize.ShloMosaic.Lib.StableHlo.Run
import Idealize.ShloMosaic.Lib.ValueLayout

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first neighbour sum: the reference's scatter-add stage of the node features and the first edge list. -/
theorem agg1 (c : Dev nD) : (V m c main_v13 : S50000x128.Idx → EReal)
    = Cert.ReferenceIdeal.Read.val_main_v13 (F := Ideal) (m ((c : Thread nD τ).loc main_arg0)) (m ((c : Thread nD τ).loc main_arg1)) := by
  dsimp only [V, hostOps0]
  after_results_simp
  rfl

/-- The second neighbour sum: the same stage of the node features and the second edge list. -/
theorem agg2 (c : Dev nD) : (V m c main_v27 : S50000x128.Idx → EReal)
    = Cert.ReferenceIdeal.Read.val_main_v39 (F := Ideal) (m ((c : Thread nD τ).loc main_arg0)) (m ((c : Thread nD τ).loc main_arg2)) := by
  dsimp only [V, hostOps0]
  after_results_simp
  rfl

/-- The first weight matrix transposed. -/
theorem w1t (c : Dev nD) : (V m c main_v28 : S128x128.Idx → EReal)
    = Cert.ReferenceIdeal.Read.val_main_v15 (F := Ideal) (m ((c : Thread nD τ).loc main_arg3)) := by
  dsimp only [V, hostOps0]
  after_results_simp
  rfl

/-- The second weight matrix transposed. -/
theorem w2t (c : Dev nD) : (V m c main_v29 : S128x128.Idx → EReal)
    = Cert.ReferenceIdeal.Read.val_main_v21 (F := Ideal) (m ((c : Thread nD τ).loc main_arg5)) := by
  dsimp only [V, hostOps0]
  after_results_simp
  rfl

/-- The first bias as one row: at `(0, k)` it is the bias at `k`. -/
theorem b1row (c : Dev nD) (k : Fin 128) : (V m c main_v30 : S1x128.Idx → EReal) (ix2 (0 : Fin 1) k)
    = ((m ((c : Thread nD τ).loc main_arg4)) : S128.Idx → EReal) (ix1 k) := by
  have e : (V m c main_v30 : S1x128.Idx → EReal) = shapeCast S1x128 ((m ((c : Thread nD τ).loc main_arg4)) : S128.Idx → EReal) shapeCasts_S128_S1x128 := by
    dsimp only [V, hostOps0]
    after_results_simp
    rfl
  rw [e]
  exact shapeCast_a_1a_apply _ _ _ _

/-- The second bias as one row. -/
theorem b2row (c : Dev nD) (k : Fin 128) : (V m c main_v31 : S1x128.Idx → EReal) (ix2 (0 : Fin 1) k)
    = ((m ((c : Thread nD τ).loc main_arg6)) : S128.Idx → EReal) (ix1 k) := by
  have e : (V m c main_v31 : S1x128.Idx → EReal) = shapeCast S1x128 ((m ((c : Thread nD τ).loc main_arg6)) : S128.Idx → EReal) shapeCasts_S128_S1x128 := by
    dsimp only [V, hostOps0]
    after_results_simp
    rfl
  rw [e]
  exact shapeCast_a_1a_apply _ _ _ _

end Cert.KernelIdeal.Host

end
-- ==== Proof.Reference.lean ====
/-
  The reference, read at one entry, is `Cert.Gin.result`.

  Entry `(r, q)` of the reference's result is `max ((o₁ + o₂) · ½) 0`, where each `oₛ` is the second product's
  row `r`, column `q` — the sum over `k` of `max (first product (r, k) + b₁ k) 0` times `W₂ᵀ(k, q)` — plus
  `b₂ q`, and the first product's `(r, k)` is the sum over `l` of `(x + aₛ)(r, l) · W₁ᵀ(l, k)`.  The neighbour
  sums `a₁`, `a₂` (a gather followed by a scatter-add) and the two transposed weight matrices are carried as
  they stand: nothing here looks inside them.
-/
import proofs.«171090_j19610820673951_1_alg».proof.Proof.Gen.ReferenceIdeal.Read
import proofs.«171090_j19610820673951_1_alg».proof.Proof.Spec

noncomputable section

namespace Cert.ReferenceIdeal.Hand

open Cert.ReferenceIdeal Cert.ReferenceIdeal.Gen Cert.ReferenceIdeal.Read Idealize.ShloMosaic Idealize.ShloMosaic.ValueIdx Cert.Gin

/-! ## The composed index maps, at coordinates -/

theorem lidx2 (r : Fin 50000) (q k : Fin 128) : lidx_main_v22 (ix2 r q) k = ix2 r k :=
  funext fun a => match a with | ⟨0, _⟩ => rfl | ⟨1, _⟩ => rfl
theorem ridx2 (r : Fin 50000) (q k : Fin 128) : ridx_main_v22 (ix2 r q) k = ix2 k q :=
  funext fun a => match a with | ⟨0, _⟩ => rfl | ⟨1, _⟩ => rfl
theorem lidx2' (r : Fin 50000) (q k : Fin 128) : lidx_main_v48 (ix2 r q) k = ix2 r k :=
  funext fun a => match a with | ⟨0, _⟩ => rfl | ⟨1, _⟩ => rfl
theorem ridx2' (r : Fin 50000) (q k : Fin 128) : ridx_main_v48 (ix2 r q) k = ix2 k q :=
  funext fun a => match a with | ⟨0, _⟩ => rfl | ⟨1, _⟩ => rfl
theorem lidx1 (r : Fin 50000) (k l : Fin 128) : lidx_main_v16 (ix2 r k) l = ix2 r l :=
  funext fun a => match a with | ⟨0, _⟩ => rfl | ⟨1, _⟩ => rfl
theorem ridx1 (r : Fin 50000) (k l : Fin 128) : ridx_main_v16 (ix2 r k) l = ix2 l k :=
  funext fun a => match a with | ⟨0, _⟩ => rfl | ⟨1, _⟩ => rfl
theorem lidx1' (r : Fin 50000) (k l : Fin 128) : lidx_main_v42 (ix2 r k) l = ix2 r l :=
  funext fun a => match a with | ⟨0, _⟩ => rfl | ⟨1, _⟩ => rfl
theorem ridx1' (r : Fin 50000) (k l : Fin 128) : ridx_main_v42 (ix2 r k) l = ix2 l k :=
  funext fun a => match a with | ⟨0, _⟩ => rfl | ⟨1, _⟩ => rfl
theorem bidx1 (r : Fin 50000) (k : Fin 128) : idx_main_v17 (idx_main_v18 (ix2 r k)) = ix1 k :=
  funext fun a => match a with | ⟨0, _⟩ => rfl
theorem bidx1' (r : Fin 50000) (k : Fin 128) : idx_main_v43 (idx_main_v44 (ix2 r k)) = ix1 k :=
  funext fun a => match a with | ⟨0, _⟩ => rfl
theorem bidx2 (r : Fin 50000) (q : Fin 128) : idx_main_v23 (idx_main_v24 (ix2 r q)) = ix1 q :=
  funext fun a => match a with | ⟨0, _⟩ => rfl
theorem bidx2' (r : Fin 50000) (q : Fin 128) : idx_main_v49 (idx_main_v50 (ix2 r q)) = ix1 q :=
  funext fun a => match a with | ⟨0, _⟩ => rfl

/-- `result` at `(r, q)`, its row and column named. -/
theorem result_at (x a₁ a₂ : (⟨2, ![50000, 128]⟩ : Shape).Idx → EReal) (w1t : (⟨2, ![128, 128]⟩ : Shape).Idx → EReal) (b1 : Fin 128 → EReal)
    (w2t : (⟨2, ![128, 128]⟩ : Shape).Idx → EReal) (b2 : Fin 128 → EReal) (r : Fin 50000) (q : Fin 128) :
    result x a₁ a₂ w1t b1 w2t b2 (ix2 r q)
      = joined (fun l => x (ix2 r l) + a₁ (ix2 r l)) (fun l => x (ix2 r l) + a₂ (ix2 r l)) w1t b1 w2t b2 q := rfl

/-- The second branch transposes the same two matrices again: the same arrays. -/
theorem w1t_again (x3 : (⟨S128x128, .f32⟩ : BufTy).Contents (Elt Ideal)) : val_main_v41 (F := Ideal) x3 = val_main_v15 (F := Ideal) x3 := rfl
theorem w2t_again (x5 : (⟨S128x128, .f32⟩ : BufTy).Contents (Elt Ideal)) : val_main_v47 (F := Ideal) x5 = val_main_v21 (F := Ideal) x5 := rfl

/-- The reference's result is `result` of the node features, the two neighbour sums, the transposed weights and
    the biases. -/
theorem reference_eq (x0 : (⟨S50000x128, .f32⟩ : BufTy).Contents (Elt Ideal)) (x1 x2 : (⟨S2x800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v55 (F := Ideal) x0 x1 x2 x3 x4 x5 x6
      = result x0 (val_main_v13 (F := Ideal) x0 x1) (val_main_v39 (F := Ideal) x0 x2) (val_main_v15 (F := Ideal) x3) (fun k => x4 (ix1 k))
          (val_main_v21 (F := Ideal) x5) (fun k => x6 (ix1 k)) := by
  funext i
  obtain ⟨r, q, rfl⟩ : ∃ (r : Fin 50000) (q : Fin 128), i = ix2 r q := ⟨i 0, i 1, eq_ix2 i⟩
  rw [result_at]
  unfold joined perceptron hiddenUnit
  simp only [val_main_v55_apply, val_main_v54_apply, val_main_v53_apply, val_main_cst_4_apply, val_main_call2_v0_apply,
    val_main_call2_cst_apply, val_main_v52_apply, val_main_v25_apply, val_main_v51_apply, val_main_v22_apply, val_main_v48_apply,
    val_main_v24_apply, val_main_v23_apply, val_main_v50_apply, val_main_v49_apply, val_main_v20_apply, val_main_v46_apply,
    val_main_call0_v0_apply, val_main_call0_cst_apply, val_main_call1_v0_apply, val_main_call1_cst_apply,
    val_main_v19_apply, val_main_v45_apply, val_main_v16_apply, val_main_v42_apply, val_main_v18_apply, val_main_v17_apply,
    val_main_v44_apply, val_main_v43_apply, val_main_v14_apply, val_main_v40_apply, w1t_again, w2t_again,
    lidx2, ridx2, lidx2', ridx2', lidx1, ridx1, lidx1', ridx1', bidx1, bidx1', bidx2, bidx2',
    Ideal.addf_def, Ideal.mulf_def, Ideal.maximumf_def, Ideal.ofBits_def]

end Cert.ReferenceIdeal.Hand

end
-- ==== Proof.lean ====
/-
  A bidirectional graph-isomorphism layer: kernel against reference, over the extended reals.

  Both programs first form, for each of the two edge lists, the neighbour sum `a` — gather the source nodes'
  feature rows of `x` and scatter-add them at the destination nodes — by the same host operations on the same
  arguments; the proof never opens those.  Then every node's rows `x + a₁` and `x + a₂` go through one
  two-layer perceptron (`h ↦ max (h·W₁ᵀ + b₁) 0 · W₂ᵀ + b₂`), and the node's result is
  `max ((out₁ + out₂) · ½) 0`  (`Cert.Gin.result`, Proof/Spec.lean).

  The kernel does the perceptron part block by block: 25 grid points, 2000 rows each, the matrix products into
  zero accumulators, the operands passed through a narrower float format that is the identity on extended reals.
  A row of the result depends only on the same row of `x`, `a₁`, `a₂`, so the block written at a point is the
  whole-array function read through the block (Proof/Payload.lean, Proof/KernelValue.lean), and the blocks cover
  the array.  The reference does it in one piece, and reading its last stage entry by entry gives the same function
  (Proof/Reference.lean).  Both sums over the 128 contracted coordinates are literally the same sums, in the same
  order, so no law of the extended reals beyond unfolding is used and the finiteness of the inputs is never needed.

  The ideal pass rewrote nothing, so the kernel's idealization is its own text and that conjunct is `True`.
-/
import proofs.«171090_j19610820673951_1_alg».proof.Defs
import proofs.«171090_j19610820673951_1_alg».proof.Proof.Gen.Kernel
import proofs.«171090_j19610820673951_1_alg».proof.Proof.Gen.Kernel.Skeleton
import proofs.«171090_j19610820673951_1_alg».proof.Proof.Gen.Kernel.Launch
import proofs.«171090_j19610820673951_1_alg».proof.Proof.Gen.Kernel.Points
import proofs.«171090_j19610820673951_1_alg».proof.Proof.Gen.Kernel.Frame
import proofs.«171090_j19610820673951_1_alg».proof.Proof.Gen.KernelIdeal
import proofs.«171090_j19610820673951_1_alg».proof.Proof.Gen.KernelIdeal.Skeleton
import proofs.«171090_j19610820673951_1_alg».proof.Proof.Gen.KernelIdeal.Launch
import proofs.«171090_j19610820673951_1_alg».proof.Proof.Gen.KernelIdeal.Points
import proofs.«171090_j19610820673951_1_alg».proof.Proof.Gen.KernelIdeal.Frame
import proofs.«171090_j19610820673951_1_alg».proof.Proof.Gen.ReferenceIdeal
import proofs.«171090_j19610820673951_1_alg».proof.Proof.Gen.Pre_finite_inputs
import proofs.«171090_j19610820673951_1_alg».proof.Proof.Gen.KernelIdeal.Value
import proofs.«171090_j19610820673951_1_alg».proof.Proof.Gen.ReferenceIdeal.Run
import proofs.«171090_j19610820673951_1_alg».proof.Proof.Gen.ReferenceIdeal.Read
import proofs.«171090_j19610820673951_1_alg».proof.Proof.Spec
import proofs.«171090_j19610820673951_1_alg».proof.Proof.Payload
import proofs.«171090_j19610820673951_1_alg».proof.Proof.KernelValue
import proofs.«171090_j19610820673951_1_alg».proof.Proof.HostArrays
import proofs.«171090_j19610820673951_1_alg».proof.Proof.Reference
import Idealize.ShloMosaic.Adequacy
import Idealize.ShloMosaic.Init

noncomputable section

namespace Cert.Proof

open Idealize.ShloMosaic Idealize.SL.Sem Idealize.ShloMosaic.TcCoe Idealize.ShloMosaic.ValueIdx

/-- The kernel's result array in terms of the launch contents: the arrays its region finds are the node features
    as launched, the two neighbour sums and the two transposed weight matrices as the reference forms them, and the
    biases laid out as one row each. -/
theorem kernel_result (m : (ℓ : Loc Cert.KernelIdeal.nD Cert.KernelIdeal.τ Cert.KernelIdeal.sig) → Buf (Elt Ideal) ℓ)
    (c : Dev Cert.KernelIdeal.nD) :
    Cert.KernelIdeal.Blocks.found m c
      = Cert.Gin.result (m ((c : Thread Cert.KernelIdeal.nD Cert.KernelIdeal.τ).loc Cert.KernelIdeal.main_arg0))
          (Cert.ReferenceIdeal.Read.val_main_v13 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)))
          (Cert.ReferenceIdeal.Read.val_main_v39 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)))
          (Cert.ReferenceIdeal.Read.val_main_v15 (F := Ideal) (m ((c : Thread Cert.KernelIdeal.nD Cert.KernelIdeal.τ).loc Cert.KernelIdeal.main_arg3)))
          (fun k => ((m ((c : Thread Cert.KernelIdeal.nD Cert.KernelIdeal.τ).loc Cert.KernelIdeal.main_arg4)) : Cert.KernelIdeal.S128.Idx → EReal) (ix1 k))
          (Cert.ReferenceIdeal.Read.val_main_v21 (F := Ideal) (m ((c : Thread Cert.KernelIdeal.nD Cert.KernelIdeal.τ).loc Cert.KernelIdeal.main_arg5)))
          (fun k => ((m ((c : Thread Cert.KernelIdeal.nD Cert.KernelIdeal.τ).loc Cert.KernelIdeal.main_arg6)) : Cert.KernelIdeal.S128.Idx → EReal) (ix1 k)) := by
  unfold Cert.KernelIdeal.Blocks.found
  rw [Cert.KernelIdeal.Gen.V_main_arg0, Cert.KernelIdeal.Host.agg1, Cert.KernelIdeal.Host.agg2, Cert.KernelIdeal.Host.w1t,
    Cert.KernelIdeal.Host.w2t]
  have e1 : (fun k : Fin 128 => (Cert.KernelIdeal.Gen.V m c Cert.KernelIdeal.main_v30 : Cert.KernelIdeal.S1x128.Idx → EReal) (ix2 (0 : Fin 1) k))
      = fun k => ((m ((c : Thread Cert.KernelIdeal.nD Cert.KernelIdeal.τ).loc Cert.KernelIdeal.main_arg4)) : Cert.KernelIdeal.S128.Idx → EReal) (ix1 k) := funext fun k => Cert.KernelIdeal.Host.b1row m c k
  have e2 : (fun k : Fin 128 => (Cert.KernelIdeal.Gen.V m c Cert.KernelIdeal.main_v31 : Cert.KernelIdeal.S1x128.Idx → EReal) (ix2 (0 : Fin 1) k))
      = fun k => ((m ((c : Thread Cert.KernelIdeal.nD Cert.KernelIdeal.τ).loc Cert.KernelIdeal.main_arg6)) : Cert.KernelIdeal.S128.Idx → EReal) (ix1 k) := funext fun k => Cert.KernelIdeal.Host.b2row m c k
  rw [e1, e2]

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories agreeing on the arguments both programs end with `Cert.Gin.result` of the same arrays. -/
theorem algebraic : Cert.algebraic_KernelIdeal_ReferenceIdeal := by
  intro m ρ m' ρ' _ hagree
  refine ⟨fun c => Cert.KernelIdeal.Blocks.found m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Blocks.found m c
  rw [Cert.ReferenceIdeal.Read.val_main_v55_eq, Cert.ReferenceIdeal.Hand.reference_eq, kernel_result]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
